-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x4096 : Shape := ⟨3, ![4, 128, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩

class Facts : Prop where
  bcast_S_S4x128x4096 : S_.BroadcastsInDim S4x128x4096 (![] : Fin 0 → Fin S4x128x4096.rank)
  reducesTo_S4x128x4096_S_d0_1_2 : S4x128x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096x4096 .f32) (main_arg6 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg5
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg6
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4x128x4096 .f32) (main_arg1 : IVec S4096x4096 32) (main_arg2 : FVec F S4096x1 .f32) (main_arg3 : FVec F S4096x1 .f32) (main_arg4 : FVec F S4096x4096 .f32) (main_arg5 : FVec F S4096x4096 .f32) (main_arg6 : FVec F S4096 .f32) : IVec S_ 1 :=
  let main_v0 : FVec F S4x128x4096 .f32 := Host.absf main_arg0
  let main_cst : FVec F S_ .f32 := constant S_ .f32 0x7F800000#32
  let main_v1 : FVec F S4x128x4096 .f32 := broadcastInDim S4x128x4096 ![] bcast_S_S4x128x4096 main_cst
  let main_v2 : IVec S4x128x4096 1 := cmpf .olt main_v0 main_v1
  let main_c : IVec S_ 1 := constantI S_ 1 1#1
  let main_v3 : IVec S_ 1 := (fun x v => Host.reduce IntOp.andi x v reducesTo_S4x128x4096_S_d0_1_2 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x1 .f32 := Host.absf main_arg3
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096x4096 .f32 := Host.absf main_arg4
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg5 main_arg6 main_v13 main_v16
-- ==== Kernel.lean ====
abbrev S4x128x4096 : Shape := ⟨3, ![4, 128, 4096]⟩
abbrev S4096x4096 : Shape := ⟨2, ![4096, 4096]⟩
abbrev S4096x1 : Shape := ⟨2, ![4096, 1]⟩
abbrev S4096 : Shape := ⟨1, ![4096]⟩
abbrev S512x4096 : Shape := ⟨2, ![512, 4096]⟩
abbrev S1x4096 : Shape := ⟨2, ![1, 4096]⟩
abbrev S512x512 : Shape := ⟨2, ![512, 512]⟩
abbrev S1024x512 : Shape := ⟨2, ![1024, 512]⟩
abbrev S1024x1 : Shape := ⟨2, ![1024, 1]⟩
abbrev S1x1024 : Shape := ⟨2, ![1, 1024]⟩
abbrev S512x1024 : Shape := ⟨2, ![512, 1024]⟩

abbrev nBuf : Space → Nat
  | .hbm => 11
  | .vmem => 17
  | .smem => 0
  | _ => 0

abbrev bufTy : (tb : Table) → Fin (tcTables nBuf tb) → BufTy
  | .hbm, ⟨0, _⟩ => ⟨S4x128x4096, .f32⟩
  | .hbm, ⟨1, _⟩ => ⟨S4096x4096, .i32⟩
  | .hbm, ⟨2, _⟩ => ⟨S4096x1, .f32⟩
  | .hbm, ⟨3, _⟩ => ⟨S4096x1, .f32⟩
  | .hbm, ⟨4, _⟩ => ⟨S4096x4096, .f32⟩
  | .hbm, ⟨5, _⟩ => ⟨S4096x4096, .f32⟩
  | .hbm, ⟨6, _⟩ => ⟨S4096, .f32⟩
  | .hbm, ⟨7, _⟩ => ⟨S512x4096, .f32⟩
  | .hbm, ⟨8, _⟩ => ⟨S1x4096, .f32⟩
  | .hbm, ⟨9, _⟩ => ⟨S512x4096, .f32⟩
  | .hbm, ⟨10, _⟩ => ⟨S4x128x4096, .f32⟩
  | .local _ .vmem, ⟨0, _⟩ => ⟨S512x512, .f32⟩
  | .local _ .vmem, ⟨1, _⟩ => ⟨S512x512, .f32⟩
  | .local _ .vmem, ⟨2, _⟩ => ⟨S1024x512, .i32⟩
  | .local _ .vmem, ⟨3, _⟩ => ⟨S1024x512, .i32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S4x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_16 : BitVec 32 := 0#32
  let v27 : BitVec 1 := Scalar.cmpi .ne v26 c0_i32_16
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S4x128x4096_S512x4096 : S4x128x4096.ShapeCasts S512x4096
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  inb_S1024x1_S1024x1_0_0 : ∀ a, (![0, 0] : Fin 2 → Nat) a + S1024x1.size a ≤ S1024x1.size a
  h_S1024x1 : 0 < S1024x1.numel
  broadcasts_S1024x1_S1024x512 : S1024x1.Broadcasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x4096_S4x128x4096 : S512x4096.ShapeCasts S4x128x4096
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x4096.size a
  hwx0_0 : ∀ i : grid0.Coords, EltTy.bits .f32 = 32 ∨ (Rect.block (s := S512x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .i32 = 32 ∨ (Rect.block (s := S4096x4096) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S4096x4096.size a
  hwx0_4 : ∀ i : grid0.Coords, EltTy.bits .f32 = 32 ∨ (Rect.block (s := S4096x4096) S1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S4096x4096.size a
  hwx0_5 : ∀ i : grid0.Coords, EltTy.bits .f32 = 32 ∨ (Rect.block (s := S4096x4096) S1024x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x4096.size a
  hwx0_6 : ∀ i : grid0.Coords, EltTy.bits .f32 = 32 ∨ (Rect.block (s := S1x4096) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S512x4096.size a
  hwx0_7 : ∀ i : grid0.Coords, EltTy.bits .f32 = 32 ∨ (Rect.block (s := S512x4096) S512x1024.size (cc0_transform_7 i) (hinb0_7 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4x128x4096 : Shape := ⟨3, ![4, 128, 4096]⟩
abbrev S4096x4096 : Shape := ⟨2, ![4096, 4096]⟩
abbrev S4096x1 : Shape := ⟨2, ![4096, 1]⟩
abbrev S4096 : Shape := ⟨1, ![4096]⟩
abbrev S1x1x4096 : Shape := ⟨3, ![1, 1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4x128x4096, .f32⟩
  | .hbm, ⟨1, _⟩ => ⟨S4096x4096, .i32⟩
  | .hbm, ⟨2, _⟩ => ⟨S4096x1, .f32⟩
  | .hbm, ⟨3, _⟩ => ⟨S4096x1, .f32⟩
  | .hbm, ⟨4, _⟩ => ⟨S4096x4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4x128x4096, .f32⟩
  | .hbm, ⟨15, _⟩ => ⟨S1x1x4096, .f32⟩
  | .hbm, ⟨16, _⟩ => ⟨S4x128x4096, .f32⟩
  | .hbm, ⟨17, _⟩ => ⟨S4x128x4096, .f32⟩
  | _, _ => ⟨S4x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x128x4096_0_1_2 : S1x1x4096.BroadcastsInDim S4x128x4096 (![0, 1, 2] : Fin 3 → Fin S4x128x4096.rank)
  dot_S4x128x4096_S4096x4096_S4x128x4096_2_1_01_0_n_n_wf : DotDims.WF S4x128x4096 S4096x4096 S4x128x4096 [2] [1] [0, 1] [0] [] []

variable [Facts₀]

def dot_S4x128x4096_S4096x4096_S4x128x4096_2_1_01_0_n_n : DotDims S4x128x4096 S4096x4096 S4x128x4096 where
  lhsContracting := [2]
  rhsContracting := [1]
  lhsNonContracting := [0, 1]
  rhsNonContracting := [0]
  lhsBatch := []
  rhsBatch := []
  wf := dot_S4x128x4096_S4096x4096_S4x128x4096_2_1_01_0_n_n_wf

class Facts : Prop extends Facts₀ where

variable [Facts]
-- ==== Proof.Pieces.lean ====
/-
  What the body leaves, case by case, as pure values of what it loaded.

  Every load and every store of the body goes through the rectangle that is its whole buffer, so a load reads the
  buffer's contents and the last store into a buffer decides what it holds. Hence, with acc the contents the
  accumulator had on entry:
    * at the first K-step the accumulator ends at  step(zeros)           (it is cleared, read back, and added to);
    * at every other K-step it ends at             step(acc);
    * at the last K-step the output block ends at  step(acc) + bias row  (the accumulator is read back after its store),
  where step(a) = a + x_tile · W_tileᵀ is the body's accumulating payload. These hold at any instance of the floats.
-/
import proofs.«112785_j34136400068881_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

/-- The offsets of every access of the body: the origin. -/
theorem hz : (![0, 0] : Fin 2 → Nat) = fun _ => 0 := funext fun a => by fin_cases a <;> rfl

/-- First K-step: the accumulator is cleared, then the tile's product is added to the cleared contents. -/
theorem acc_first (c : Dev nD) (i : grid0.Coords) (arg2 : Memref sig .tc .vmem S512x512 .f32) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (hc0 : cond0_0 i) (hc1 : ¬cond0_1 i)
    (x0 : Vec F S512x512 .f32) (x1 : Vec F S1024x512 .i32) (x2 : Vec F S1024x1 .f32) (x3 : Vec F S1024x1 .f32) (x4 : Vec F S1024x512 .f32) (x5 : Vec F S1024x512 .f32) (x6 : Vec F S1x1024 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay2 x1 x3 x2 x4 x5 x0 k0_pay1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S512x1024) hz, View.readCov_unit_zero (S := S512x1024) _ hz]
  simp only [View.readAt_eq_ld, harg2.read_unread, harg3.read_unread, harg4.read_unread, harg5.read_unread, harg6.read_unread, harg7.read_unread, harg8.read_unread, harg10.read_unread,
    View.ld_unit_zero (S := S512x512) hz, View.ld_unit_zero (S := S1024x512) hz, View.ld_unit_zero (S := S1024x1) hz, View.ld_unit_zero (S := S1x1024) hz, View.ld_unit_zero (S := S512x1024) hz]

/-- A middle K-step: the tile's product is added to what the accumulator held. -/
theorem acc_middle (c : Dev nD) (i : grid0.Coords) (arg2 : Memref sig .tc .vmem S512x512 .f32) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : ¬cond0_1 i)
    (x0 : Vec F S512x512 .f32) (x1 : Vec F S1024x512 .i32) (x2 : Vec F S1024x1 .f32) (x3 : Vec F S1024x1 .f32) (x4 : Vec F S1024x512 .f32) (x5 : Vec F S1024x512 .f32) (x6 : Vec F S1x1024 .f32) (xs0 : Vec F S512x1024 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay2 x1 x3 x2 x4 x5 x0 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  rw [View.canon_unit_zero hz]
  simp only [View.readAt_eq_ld, harg2.read_unread, harg3.read_unread, harg4.read_unread, harg5.read_unread, harg6.read_unread, harg7.read_unread, harg8.read_unread, harg10.read_unread,
    View.ld_unit_zero (S := S512x512) hz, View.ld_unit_zero (S := S1024x512) hz, View.ld_unit_zero (S := S1024x1) hz, View.ld_unit_zero (S := S1x1024) hz, View.ld_unit_zero (S := S512x1024) hz]

/-- The last K-step leaves the accumulator as a middle step does; -/
theorem acc_last (c : Dev nD) (i : grid0.Coords) (arg2 : Memref sig .tc .vmem S512x512 .f32) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : cond0_1 i)
    (x0 : Vec F S512x512 .f32) (x1 : Vec F S1024x512 .i32) (x2 : Vec F S1024x1 .f32) (x3 : Vec F S1024x1 .f32) (x4 : Vec F S1024x512 .f32) (x5 : Vec F S1024x512 .f32) (x6 : Vec F S1x1024 .f32) (xs0 : Vec F S512x1024 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay2 x1 x3 x2 x4 x5 x0 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg10.read_unread,
    View.ld_unit_zero (S := S512x512) hz, View.ld_unit_zero (S := S1024x512) hz, View.ld_unit_zero (S := S1024x1) hz, View.ld_unit_zero (S := S1x1024) hz, View.ld_unit_zero (S := S512x1024) hz]

/-- and stores, into the output block, that accumulator plus the bias row. -/
theorem out_last (c : Dev nD) (i : grid0.Coords) (arg2 : Memref sig .tc .vmem S512x512 .f32) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : cond0_1 i)
    (x0 : Vec F S512x512 .f32) (x1 : Vec F S1024x512 .i32) (x2 : Vec F S1024x1 .f32) (x3 : Vec F S1024x1 .f32) (x4 : Vec F S1024x512 .f32) (x5 : Vec F S1024x512 .f32) (x6 : Vec F S1x1024 .f32) (xs0 : Vec F S512x1024 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay3 (k0_pay2 x1 x3 x2 x4 x5 x0 xs0) x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz, View.readCov_unit_zero (S := S512x1024) _ hz]
  simp only [View.readAt_eq_ld, harg2.read_unread, harg3.read_unread, harg4.read_unread, harg5.read_unread, harg6.read_unread, harg7.read_unread, harg8.read_unread, harg10.read_unread,
    View.ld_unit_zero (S := S512x512) hz, View.ld_unit_zero (S := S1024x512) hz, View.ld_unit_zero (S := S1024x1) hz, View.ld_unit_zero (S := S1x1024) hz, View.ld_unit_zero (S := S512x1024) hz]

end Cert.KernelIdeal.Pieces

end
-- ==== Proof.LibPlain.lean ====
/-
  General facts, at the ideal values, about the plain two-dimensional matrix product and about reductions along the
  rows of a two-dimensional array, stated at indices built from their two coordinates; and two regroupings of a finite
  sum in a commutative monoid (by tiles of equal length; against a mask that keeps one index).
-/
import Idealize.ShloMosaic.Lib.ValueIdx
import Idealize.ShloMosaic.PureOps.Ideal.Laws
import Idealize.ShloMosaic.Lib.Pipeline.Value

noncomputable section

namespace Idealize.ShloMosaic

open ValueIdx

/-- In the plain product `[M,K] × [K,N]` the left operand is read at (row, k) -/
theorem plain_lhsIdx {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- and the right operand at (k, column). -/
theorem plain_rhsIdx {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- The matrix unit's product into a zero accumulator, at (p, q): the sum over k of L(p,k) · R(k,q). -/
theorem Ideal.matmul_plain_zero_apply {M K N : Nat} {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply, ← Equiv.sum_comp (contrEquiv1 (DotDims.plain M K N) K rfl rfl).symm]
  exact Finset.sum_congr rfl fun k _ => by rw [plain_lhsIdx, plain_rhsIdx]

/-- The host's product, at (p, q): the same sum. -/
theorem Ideal.dotGeneral_plain_apply {M K N : Nat} {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q)
      = ∑ k : Fin K, L (ix2 p k) * R (ix2 k q) := by
  rw [Ideal.dotGeneral_apply, ← Equiv.sum_comp (contrEquiv1 (DotDims.plain M K N) K rfl rfl).symm]
  exact Finset.sum_congr rfl fun k _ => by rw [plain_lhsIdx, plain_rhsIdx]

/-- Reducing the second axis of an `[M,N]` array: the source index over row `p` with coordinate `q` inserted is (p, q). -/
theorem lift_rows {M N : Nat} (h : (⟨2, ![M, N]⟩ : Shape).Reduces [1] ⟨1, ![M]⟩) (p : Fin M) (q : Fin N) :
    h.lift (ix1 p) q = ix2 p q := by
  funext a
  apply Fin.ext
  match a with
  | ⟨0, _⟩ => rfl
  | ⟨1, _⟩ => rfl

/-- A lane sum along the rows, at row `p`: the sum over the row. -/
theorem Ideal.multiReduction_add_rows {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ q : Fin N, src (ix2 p q) := by
  rw [Ideal.multiReduction_add_single]
  exact Finset.sum_congr rfl fun q _ => congrArg src (lift_rows h p q)

/-- A lane maximum along the rows, at row `p`: the fold of `max` over the row from the accumulator's value. -/
theorem Ideal.multiReduction_maximumf_rows {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun q => src (ix2 p q)) := by
  rw [Ideal.multiReduction_maximumf_single]
  exact congrArg (fun f => Finset.fold max (FloatOps.ofBits φ acc) f Finset.univ) (funext fun q => congrArg src (lift_rows h p q) : src ∘ h.lift (ix1 p) = fun q => src (ix2 p q))

/-- The same two facts with the accumulator's word spelt as a kernel's text spells it (the -inf word; the zero word), the
    format's proof the literal one. -/
theorem Ideal.multiReduction_maximumf_rows_f32 {M N : Nat} (src : FVec Ideal ⟨2, ![M, N]⟩ .f32) (h : (⟨2, ![M, N]⟩ : Shape).Reduces [1] ⟨1, ![M]⟩)
    (hacc : (0xFF800000#32 : BitVec 32) = 0xFF800000#32) (p : Fin M) :
    multiReduction .maximumf [1] ⟨1, ![M]⟩ src 0xFF800000#32 h (.inl rfl) hacc (ix1 p)
      = (Finset.univ : Finset (Fin N)).fold max (Ideal.ofBits .f32 0xFF800000#32) (fun q => src (ix2 p q)) :=
  Ideal.multiReduction_maximumf_rows src _ h (.inl rfl) hacc p
theorem Ideal.multiReduction_add_rows_f32 {M N : Nat} (src : FVec Ideal ⟨2, ![M, N]⟩ .f32) (h : (⟨2, ![M, N]⟩ : Shape).Reduces [1] ⟨1, ![M]⟩)
    (hacc : (0x00000000#32 : BitVec 32) = 0x00000000#32) (p : Fin M) :
    multiReduction .add [1] ⟨1, ![M]⟩ src 0x00000000#32 h (.inl rfl) hacc (ix1 p) = ∑ q : Fin N, src (ix2 p q) :=
  Ideal.multiReduction_add_rows src _ h (.inl rfl) hacc p

/-- The vector exponential at an index. -/
theorem exp_apply_ideal {s : Shape} {φ : FTy} (a : FVec Ideal s φ) (i : s.Idx) : Idealize.ShloMosaic.exp a i = Ideal.exp (a i) := rfl

/-- A rank-1 vector recast as a column, at (p, q): the vector at p. -/
theorem shapeCast_col {α : Type} {M : Nat} (x : (⟨1, ![M]⟩ : Shape).Idx → α) (h : (⟨1, ![M]⟩ : Shape).ShapeCasts ⟨2, ![M, 1]⟩)
    (p : Fin M) (q : Fin 1) : shapeCast ⟨2, ![M, 1]⟩ x h (ix2 p q) = x (ix1 p) := by
  refine shapeCast_apply x h (ix2 p q) (ix1 p) ?_
  rw [Shape.rowMajor_val_one, Shape.rowMajor_val_two]
  show p.val = p.val * 1 + q.val
  omega

/-- A column broadcast along the rows, at (p, q): the column at p. -/
theorem broadcastTo_col {α : Type} {M N : Nat} (x : (⟨2, ![M, 1]⟩ : Shape).Idx → α) (h : (⟨2, ![M, 1]⟩ : Shape).Broadcasts ⟨2, ![M, N]⟩)
    (p : Fin M) (q : Fin N) : broadcastTo ⟨2, ![M, N]⟩ x h (ix2 p q) = x (ix2 p 0) := by
  refine broadcastTo_apply x h (ix2 p q) (ix2 p 0) fun a => ?_
  match a with
  | ⟨0, _⟩ =>
    show p.val = if M = 1 then 0 else p.val
    split
    · have := p.isLt; omega
    · rfl
  | ⟨1, _⟩ =>
    show (0 : Fin 1).val = if (1 : Nat) = 1 then 0 else q.val
    rw [if_pos rfl]; rfl

namespace Layer
/-- Two linear maps with the clamp `max · z` before each, on one row. -/
def net {a b c : Nat} (z : EReal) (y : Fin a → EReal) (W1 : Fin a → Fin b → EReal) (W2 : Fin b → Fin c → EReal) (q : Fin c) : EReal :=
  ∑ k : Fin b, max (∑ j : Fin a, max (y j) z * W1 j k) z * W2 k q
/-- The softmax of one row, with the maximum taken from `ninf`. -/
def smax {c : Nat} (ninf : EReal) (l : Fin c → EReal) (q : Fin c) : EReal :=
  Ideal.div (Ideal.exp (l q - max ninf (Finset.univ.fold max ninf l)))
    (∑ q' : Fin c, Ideal.exp (l q' - max ninf (Finset.univ.fold max ninf l)))
/-- Both depend on their arguments only through their values. -/
theorem net_congr {a b c : Nat} (z : EReal) {y y' : Fin a → EReal} {W1 W1' : Fin a → Fin b → EReal} {W2 W2' : Fin b → Fin c → EReal}
    (hy : ∀ j, y j = y' j) (h1 : ∀ j k, W1 j k = W1' j k) (h2 : ∀ k q, W2 k q = W2' k q) (q : Fin c) :
    net z y W1 W2 q = net z y' W1' W2' q := by
  rw [funext hy, funext fun j => funext (h1 j), funext fun k => funext (h2 k)]
theorem smax_net_congr {a b c : Nat} (z ninf : EReal) {y y' : Fin a → EReal} {W1 W1' : Fin a → Fin b → EReal} {W2 W2' : Fin b → Fin c → EReal}
    (hy : ∀ j, y j = y' j) (h1 : ∀ j k, W1 j k = W1' j k) (h2 : ∀ k q, W2 k q = W2' k q) (q : Fin c) :
    smax ninf (net z y W1 W2) q = smax ninf (net z y' W1' W2') q := by
  rw [funext hy, funext fun j => funext (h1 j), funext fun k => funext (h2 k)]
end Layer

/-- A sum over `T · K` consecutive indices is the sum over the `T` tiles of the sums over each tile's `K` indices. -/
theorem sum_tiles {α : Type*} [AddCommMonoid α] (T K : Nat) (f : Fin (T * K) → α) :
    ∑ j, f j = ∑ t : Fin T, ∑ k : Fin K, f (finProdFinEquiv (t, k)) :=
  (Fintype.sum_equiv finProdFinEquiv (fun x => f (finProdFinEquiv x)) f (fun _ => rfl)).symm.trans (Fintype.sum_prod_type _)

end Idealize.ShloMosaic

end
-- ==== Proof.Payload.lean ====
/-
  The body's three stored values, read entry by entry over the extended reals.

  * the cleared accumulator is 0 everywhere;
  * the accumulating step, at row p and column q of the tile:
        a(p, q) + sum over kk < 512 of  x(p, kk) * ((q_w(q, kk) - z(q)) * s(q) + u(q, kk) * g(q, kk)),
    since the matrix unit's product into a zero accumulator contracts the second axis of both operands, the change of
    float format is the identity, and the two per-row columns are broadcast along the row;
  * the final store is the accumulator plus the bias row broadcast down the rows:  a(p, q) + b(0, q).
-/
import proofs.«112785_j34136400068881_1_alg».proof.Proof.Gen.KernelIdeal.Skeleton
import proofs.«112785_j34136400068881_1_alg».proof.Proof.LibPlain
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Payload

open Idealize.ShloMosaic Idealize.ShloMosaic.ValueIdx
open Cert.KernelIdeal Cert.KernelIdeal.Gen

/-- The kernel's contraction: x [512, 512] against w [1024, 512] over the second axis of both. -/
abbrev D := dot_S512x512_S1024x512_S512x1024_1_1_0_0_n_n

theorem lhs0 (j : S512x1024.Idx) (k : D.contr.Idx) : (D.lhsIdx j k 0).val = (j 0).val := by
  unfold DotDims.lhsIdx
  rw [dif_neg (show ¬(0 : Fin S512x512.rank) ∈ D.lhsBatch by decide), dif_pos (show (0 : Fin S512x512.rank) ∈ D.lhsNonContracting by decide)]
  rfl
theorem lhs1 (j : S512x1024.Idx) (k : D.contr.Idx) : (D.lhsIdx j k 1).val = (k ⟨0, by decide⟩).val :=
  D.lhsIdx_val_of_single rfl j k
theorem rhs0 (j : S512x1024.Idx) (k : D.contr.Idx) : (D.rhsIdx j k 0).val = (j 1).val := by
  unfold DotDims.rhsIdx
  rw [dif_neg (show ¬(0 : Fin S1024x512.rank) ∈ D.rhsBatch by decide), dif_pos (show (0 : Fin S1024x512.rank) ∈ D.rhsNonContracting by decide)]
  rfl
theorem rhs1 (j : S512x1024.Idx) (k : D.contr.Idx) : (D.rhsIdx j k 1).val = (k ⟨0, by decide⟩).val :=
  D.rhsIdx_val_of_single rfl j k

/-- The product into a zero accumulator at (p, q): the sum over kk of L(p, kk) * R(q, kk). -/
theorem matmul_at (L : FVec Ideal S512x512 .bf16) (R : FVec Ideal S1024x512 .bf16) (p : Fin 512) (q : Fin 1024) :
    FloatOps.matmul (F := Ideal) D none L R (constant S512x1024 .f32 0x00000000#32) (ix2 p q) = ∑ kk : Fin 512, L (ix2 p kk) * R (ix2 q kk) := by
  rw [Ideal.matmul_constant_zero_apply, ← Equiv.sum_comp (contrEquiv1 D 512 rfl rfl).symm]
  refine Finset.sum_congr rfl fun k _ => ?_
  have hk := contrEquiv1_symm_val D 512 rfl rfl k
  have el : D.lhsIdx (ix2 p q) ((contrEquiv1 D 512 rfl rfl).symm k) = ix2 p k := funext fun a => Fin.ext (by
    match a with
    | ⟨0, _⟩ => exact lhs0 _ _
    | ⟨1, _⟩ => exact (lhs1 _ _).trans hk)
  have er : D.rhsIdx (ix2 p q) ((contrEquiv1 D 512 rfl rfl).symm k) = ix2 q k := funext fun a => Fin.ext (by
    match a with
    | ⟨0, _⟩ => exact rhs0 _ _
    | ⟨1, _⟩ => exact (rhs1 _ _).trans hk)
  rw [el, er]

/-- The cleared accumulator. -/
theorem pay1_at (p : Fin 512) (q : Fin 1024) : k0_pay1 (F := Ideal) (ix2 p q) = 0 := by
  unfold k0_pay1
  rw [shapeCast_self]
  exact Ideal.ofBits_zero_f32

/-- The weight tile the body builds, at (q, kk). -/
theorem weight_at (v3 : Vec Ideal S1024x512 .i32) (v5 v8 : Vec Ideal S1024x1 .f32) (v11 v12 : Vec Ideal S1024x512 .f32)
    (q : Fin 1024) (kk : Fin 512) :
    (truncf (F := Ideal) .bf16 (addf (mulf (subf (sitofp .f32 v3) (broadcastTo S1024x512 v5 broadcasts_S1024x1_S1024x512))
        (broadcastTo S1024x512 v8 broadcasts_S1024x1_S1024x512)) (mulf v11 v12)) bitsLt_bf16_f32 (ix2 q kk) : EReal)
      = (FloatOps.sitofp (F := Ideal) .f32 (v3 (ix2 q kk)) - v5 (ix2 q 0)) * v8 (ix2 q 0) + v11 (ix2 q kk) * v12 (ix2 q kk) := by
  show (FloatOps.sitofp (F := Ideal) .f32 (v3 (ix2 q kk)) - broadcastTo S1024x512 v5 broadcasts_S1024x1_S1024x512 (ix2 q kk))
      * broadcastTo S1024x512 v8 broadcasts_S1024x1_S1024x512 (ix2 q kk) + v11 (ix2 q kk) * v12 (ix2 q kk) = _
  rw [broadcastTo_col, broadcastTo_col]

/-- The accumulating step at (p, q). -/
theorem pay2_at (v3 : Vec Ideal S1024x512 .i32) (v5 v8 : Vec Ideal S1024x1 .f32) (v11 v12 : Vec Ideal S1024x512 .f32)
    (v16 : Vec Ideal S512x512 .f32) (v19 : Vec Ideal S512x1024 .f32) (p : Fin 512) (q : Fin 1024) :
    k0_pay2 (F := Ideal) v3 v5 v8 v11 v12 v16 v19 (ix2 p q)
      = v19 (ix2 p q) + ∑ kk : Fin 512, v16 (ix2 p kk)
          * ((FloatOps.sitofp (F := Ideal) .f32 (v3 (ix2 q kk)) - v5 (ix2 q 0)) * v8 (ix2 q 0) + v11 (ix2 q kk) * v12 (ix2 q kk)) := by
  unfold k0_pay2
  rw [shapeCast_self, shapeCast_self]
  show v19 (ix2 p q) + FloatOps.matmul (F := Ideal) D none _ _ (constant (F := Ideal) S512x1024 .f32 0x00000000#32) (ix2 p q) = _
  rw [matmul_at]
  refine congrArg (v19 (ix2 p q) + ·) (Finset.sum_congr rfl fun kk _ => ?_)
  rw [weight_at]
  rfl

/-- The final store at (p, q). -/
theorem pay3_at (v28 : Vec Ideal S512x1024 .f32) (v29 : Vec Ideal S1x1024 .f32) (p : Fin 512) (q : Fin 1024) :
    k0_pay3 (F := Ideal) v28 v29 (ix2 p q) = v28 (ix2 p q) + v29 (ix2 0 q) := by
  unfold k0_pay3
  rw [shapeCast_self]
  show v28 (ix2 p q) + broadcastTo S512x1024 v29 broadcasts_S1x1024_S512x1024 (ix2 p q) = _
  rw [broadcastTo_1b_ab_apply]

end Cert.KernelIdeal.Payload

end
-- ==== Proof.Spec.lean ====
/-
  The function both programs compute, stated once over plain index types, and the one law that joins the two sides.

  With W(o, i) = (q(o, i) - z(o)) * s(o) + u(o, i) * g(o, i)  (q the integer weight read as a real, z the per-row
  zero point, s the per-row scale, u the dense correction and g its learned factor), the result at row p and
  output feature o is   (sum over i < 4096 of x(p, i) * W(o, i)) + b(o).

  The kernel takes that sum in 8 tiles of 512 consecutive i, adding each tile's sum to a running total that starts
  from zero; the law is that a sum over 8 * 512 consecutive indices is the sum of the 8 tile sums, which holds in any
  commutative monoid, so on the extended reals with no finiteness assumed.
-/
import Idealize.ShloMosaic.PureOps.Ideal
import Idealize.ShloMosaic.Lib.ValueIdx
import proofs.«112785_j34136400068881_1_alg».proof.Proof.LibPlain

noncomputable section

namespace Cert.QuantLinear

open Idealize.ShloMosaic Idealize.ShloMosaic.ValueIdx

/-- A two-axis array of extended reals. -/
abbrev A2 (a b : ℕ) : Type := (⟨2, ![a, b]⟩ : Shape).Idx → EReal

/-- Column `kk` of the K-tile number `j` (reduced mod 4096 so that it is an index for every `j`; for `j < 8` nothing is reduced). -/
def col (j : ℕ) (kk : Fin 512) : Fin 4096 := ⟨(512 * j + kk.val) % 4096, Nat.mod_lt _ (by norm_num)⟩

/-- Row `q` of the N-tile number `n` (reduced mod 4096 likewise; for `n < 4` nothing is reduced). -/
def row (n : ℕ) (q : Fin 1024) : Fin 4096 := ⟨(1024 * n + q.val) % 4096, Nat.mod_lt _ (by norm_num)⟩

/-- The dequantized, corrected weight at (o, i). -/
def wt (qf : A2 4096 4096) (z s : A2 4096 1) (u g : A2 4096 4096) (o i : Fin 4096) : EReal :=
  (qf (ix2 o i) - z (ix2 o 0)) * s (ix2 o 0) + u (ix2 o i) * g (ix2 o i)

/-- The K-tile number `j`'s part of the product at (p, o). -/
def tile (x : A2 512 4096) (w : Fin 4096 → Fin 4096 → EReal) (p : Fin 512) (o : Fin 4096) (j : ℕ) : EReal :=
  ∑ kk : Fin 512, x (ix2 p (col j kk)) * w o (col j kk)

/-- The running total after the tiles 0..k. -/
def upto (x : A2 512 4096) (w : Fin 4096 → Fin 4096 → EReal) (p : Fin 512) (o : Fin 4096) (k : ℕ) : EReal :=
  ∑ j ∈ Finset.range (k + 1), tile x w p o j

/-- The whole product at (p, o). -/
def dot (x : A2 512 4096) (w : Fin 4096 → Fin 4096 → EReal) (p : Fin 512) (o : Fin 4096) : EReal :=
  ∑ i : Fin 4096, x (ix2 p i) * w o i

/-- The result as a [512, 4096] array: the product plus the bias of the column. -/
def out2 (x : A2 512 4096) (qf : A2 4096 4096) (z s : A2 4096 1) (u g : A2 4096 4096) (b : A2 1 4096) : A2 512 4096 :=
  fun j => dot x (wt qf z s u g) ⟨(j 0).val, (j 0).isLt⟩ ⟨(j 1).val, (j 1).isLt⟩ + b (ix2 0 ⟨(j 1).val, (j 1).isLt⟩)

theorem out2_apply (x : A2 512 4096) (qf : A2 4096 4096) (z s : A2 4096 1) (u g : A2 4096 4096) (b : A2 1 4096)
    (p : Fin 512) (o : Fin 4096) :
    out2 x qf z s u g b (ix2 p o) = dot x (wt qf z s u g) p o + b (ix2 0 o) := rfl

/-- The first tile added to zero is the running total after tile 0. -/
theorem zero_add_tile (x : A2 512 4096) (w : Fin 4096 → Fin 4096 → EReal) (p : Fin 512) (o : Fin 4096) :
    (0 : EReal) + tile x w p o 0 = upto x w p o 0 := by
  unfold upto
  rw [zero_add, Finset.sum_range_one]

/-- One more tile added to the running total. -/
theorem upto_add_tile (x : A2 512 4096) (w : Fin 4096 → Fin 4096 → EReal) (p : Fin 512) (o : Fin 4096) (k : ℕ) :
    upto x w p o k + tile x w p o (k + 1) = upto x w p o (k + 1) := by
  unfold upto
  rw [Finset.sum_range_succ _ (k + 1)]

/-- A tile's column as a position among the 8 * 512 consecutive columns. -/
theorem col_eq (j : Fin 8) (kk : Fin 512) : col j.val kk = ⟨(finProdFinEquiv (j, kk)).val, (finProdFinEquiv (j, kk)).isLt⟩ := by
  apply Fin.ext
  show (512 * j.val + kk.val) % 4096 = kk.val + 512 * j.val
  have h1 := j.isLt
  have h2 := kk.isLt
  rw [Nat.mod_eq_of_lt (by omega)]
  omega

/-- After all 8 tiles the running total is the whole product. -/
theorem upto_last (x : A2 512 4096) (w : Fin 4096 → Fin 4096 → EReal) (p : Fin 512) (o : Fin 4096) :
    upto x w p o 7 = dot x w p o := by
  unfold upto dot tile
  rw [Finset.sum_range]
  have h := sum_tiles (α := EReal) 8 512 (fun i : Fin (8 * 512) => x (ix2 p ⟨i.val, i.isLt⟩) * w o ⟨i.val, i.isLt⟩)
  refine Eq.trans ?_ h.symm
  refine Finset.sum_congr rfl fun j _ => Finset.sum_congr rfl fun kk _ => ?_
  rw [col_eq j kk]

end Cert.QuantLinear

end
-- ==== Proof.Blocks.lean ====
/-
  The blocks the body is handed, read off the arrays.

  Grid point t is the pair (n, k) = (t / 8, t % 8): n the tile of 1024 output features, k the tile of 512 input
  features. At that point
    * the x block is rows 0..511, columns 512 k + kk;
    * the weight-shaped blocks (integer weight, correction, learned factor) are rows 1024 n + q, columns 512 k + kk;
    * the two per-row columns (zero point, scale) are rows 1024 n + q;
    * the bias block is columns 1024 n + q of the one bias row.
  A block's coordinate on an axis is always (block index) * (block extent) + (coordinate inside the block).
-/
import proofs.«112785_j34136400068881_1_alg».proof.Proof.Gen.KernelIdeal.Frame.Runs
import proofs.«112785_j34136400068881_1_alg».proof.Proof.Spec
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen Cert.QuantLinear

variable {F : FTy → Type} [FloatOps F]
variable (m : (ℓ : Loc nD τ sig) → Buf (Elt F) ℓ)

/-- The printed index maps, decided once over the 32 grid points. -/
theorem idx_facts : ∀ t : Fin cfg0.N,
      win0_0.index t (0 : Fin 2) = 0 ∧ win0_0.index t (1 : Fin 2) = t.val % 8
    ∧ win0_1.index t (0 : Fin 2) = t.val / 8 ∧ win0_1.index t (1 : Fin 2) = t.val % 8
    ∧ win0_2.index t (0 : Fin 2) = t.val / 8 ∧ win0_2.index t (1 : Fin 2) = 0
    ∧ win0_3.index t (0 : Fin 2) = t.val / 8 ∧ win0_3.index t (1 : Fin 2) = 0
    ∧ win0_4.index t (0 : Fin 2) = t.val / 8 ∧ win0_4.index t (1 : Fin 2) = t.val % 8
    ∧ win0_5.index t (0 : Fin 2) = t.val / 8 ∧ win0_5.index t (1 : Fin 2) = t.val % 8
    ∧ win0_6.index t (0 : Fin 2) = 0 ∧ win0_6.index t (1 : Fin 2) = t.val / 8
    ∧ win0_7.index t (0 : Fin 2) = 0 ∧ win0_7.index t (1 : Fin 2) = t.val / 8 :=
  (by decide +kernel : ∀ t : Fin grid0.N, _)

theorem t_lt (t : Fin cfg0.N) : t.val < 32 := lt_of_lt_of_eq t.isLt (show cfg0.N = 32 from N_0)

/-- The x block. -/
theorem blk_x (c : Dev nD) (t : Fin cfg0.N) (p : Fin 512) (kk : Fin 512) :
    (iblk m c 0 t : Vec F S512x512 .f32) (ix2 p kk) = V m c main_v0 (ix2 p (col (t.val % 8) kk)) := by
  obtain ⟨e00, e01, -⟩ := idx_facts t
  have hk := kk.isLt
  unfold iblk
  rw [View.read_apply]
  show V m c main_v0 _ = V m c main_v0 _
  refine congrArg (V m c main_v0) (funext fun a => Fin.ext ?_)
  match a with
  | ⟨0, _⟩ => show win0_0.index t (0 : Fin 2) * 512 + 1 * p.val = p.val; omega
  | ⟨1, _⟩ => show win0_0.index t (1 : Fin 2) * 512 + 1 * kk.val = (512 * (t.val % 8) + kk.val) % 4096; omega

/-- The integer weight block. -/
theorem blk_q (c : Dev nD) (t : Fin cfg0.N) (q : Fin 1024) (kk : Fin 512) :
    (iblk m c 1 t : Vec F S1024x512 .i32) (ix2 q kk) = V m c main_arg1 (ix2 (row (t.val / 8) q) (col (t.val % 8) kk)) := by
  obtain ⟨-, -, e10, e11, -⟩ := idx_facts t
  have hk := kk.isLt; have hq := q.isLt; have ht := t_lt t
  unfold iblk
  rw [View.read_apply]
  show V m c main_arg1 _ = V m c main_arg1 _
  refine congrArg (V m c main_arg1) (funext fun a => Fin.ext ?_)
  match a with
  | ⟨0, _⟩ => show win0_1.index t (0 : Fin 2) * 1024 + 1 * q.val = (1024 * (t.val / 8) + q.val) % 4096; omega
  | ⟨1, _⟩ => show win0_1.index t (1 : Fin 2) * 512 + 1 * kk.val = (512 * (t.val % 8) + kk.val) % 4096; omega

/-- The scale column's block. -/
theorem blk_s (c : Dev nD) (t : Fin cfg0.N) (q : Fin 1024) :
    (iblk m c 2 t : Vec F S1024x1 .f32) (ix2 q 0) = V m c main_arg2 (ix2 (row (t.val / 8) q) 0) := by
  obtain ⟨-, -, -, -, e20, e21, -⟩ := idx_facts t
  have hq := q.isLt; have ht := t_lt t
  unfold iblk
  rw [View.read_apply]
  show V m c main_arg2 _ = V m c main_arg2 _
  refine congrArg (V m c main_arg2) (funext fun a => Fin.ext ?_)
  match a with
  | ⟨0, _⟩ => show win0_2.index t (0 : Fin 2) * 1024 + 1 * q.val = (1024 * (t.val / 8) + q.val) % 4096; omega
  | ⟨1, _⟩ => show win0_2.index t (1 : Fin 2) * 1 + 1 * 0 = 0; omega

/-- The zero-point column's block. -/
theorem blk_z (c : Dev nD) (t : Fin cfg0.N) (q : Fin 1024) :
    (iblk m c 3 t : Vec F S1024x1 .f32) (ix2 q 0) = V m c main_arg3 (ix2 (row (t.val / 8) q) 0) := by
  obtain ⟨-, -, -, -, -, -, e30, e31, -⟩ := idx_facts t
  have hq := q.isLt; have ht := t_lt t
  unfold iblk
  rw [View.read_apply]
  show V m c main_arg3 _ = V m c main_arg3 _
  refine congrArg (V m c main_arg3) (funext fun a => Fin.ext ?_)
  match a with
  | ⟨0, _⟩ => show win0_3.index t (0 : Fin 2) * 1024 + 1 * q.val = (1024 * (t.val / 8) + q.val) % 4096; omega
  | ⟨1, _⟩ => show win0_3.index t (1 : Fin 2) * 1 + 1 * 0 = 0; omega

/-- The correction's block. -/
theorem blk_u (c : Dev nD) (t : Fin cfg0.N) (q : Fin 1024) (kk : Fin 512) :
    (iblk m c 4 t : Vec F S1024x512 .f32) (ix2 q kk) = V m c main_arg4 (ix2 (row (t.val / 8) q) (col (t.val % 8) kk)) := by
  obtain ⟨-, -, -, -, -, -, -, -, e40, e41, -⟩ := idx_facts t
  have hk := kk.isLt; have hq := q.isLt; have ht := t_lt t
  unfold iblk
  rw [View.read_apply]
  show V m c main_arg4 _ = V m c main_arg4 _
  refine congrArg (V m c main_arg4) (funext fun a => Fin.ext ?_)
  match a with
  | ⟨0, _⟩ => show win0_4.index t (0 : Fin 2) * 1024 + 1 * q.val = (1024 * (t.val / 8) + q.val) % 4096; omega
  | ⟨1, _⟩ => show win0_4.index t (1 : Fin 2) * 512 + 1 * kk.val = (512 * (t.val % 8) + kk.val) % 4096; omega

/-- The learned factor's block. -/
theorem blk_g (c : Dev nD) (t : Fin cfg0.N) (q : Fin 1024) (kk : Fin 512) :
    (iblk m c 5 t : Vec F S1024x512 .f32) (ix2 q kk) = V m c main_arg5 (ix2 (row (t.val / 8) q) (col (t.val % 8) kk)) := by
  obtain ⟨-, -, -, -, -, -, -, -, -, -, e50, e51, -⟩ := idx_facts t
  have hk := kk.isLt; have hq := q.isLt; have ht := t_lt t
  unfold iblk
  rw [View.read_apply]
  show V m c main_arg5 _ = V m c main_arg5 _
  refine congrArg (V m c main_arg5) (funext fun a => Fin.ext ?_)
  match a with
  | ⟨0, _⟩ => show win0_5.index t (0 : Fin 2) * 1024 + 1 * q.val = (1024 * (t.val / 8) + q.val) % 4096; omega
  | ⟨1, _⟩ => show win0_5.index t (1 : Fin 2) * 512 + 1 * kk.val = (512 * (t.val % 8) + kk.val) % 4096; omega

/-- The bias row's block. -/
theorem blk_b (c : Dev nD) (t : Fin cfg0.N) (q : Fin 1024) :
    (iblk m c 6 t : Vec F S1x1024 .f32) (ix2 0 q) = V m c main_v1 (ix2 0 (row (t.val / 8) q)) := by
  obtain ⟨-, -, -, -, -, -, -, -, -, -, -, -, e60, e61, -⟩ := idx_facts t
  have hq := q.isLt; have ht := t_lt t
  unfold iblk
  rw [View.read_apply]
  show V m c main_v1 _ = V m c main_v1 _
  refine congrArg (V m c main_v1) (funext fun a => Fin.ext ?_)
  match a with
  | ⟨0, _⟩ => show win0_6.index t (0 : Fin 2) * 1 + 1 * 0 = 0; omega
  | ⟨1, _⟩ => show win0_6.index t (1 : Fin 2) * 1024 + 1 * q.val = (1024 * (t.val / 8) + q.val) % 4096; omega

end Cert.KernelIdeal.Blocks

end
-- ==== Proof.Invariant.lean ====
/-
  The running total the accumulator holds after every grid point, and what the last K-step stores.

  Point t is (n, k) = (t / 8, t % 8). By induction on t, after point t the accumulator holds, at (p, q),
      the sum over the tiles j = 0..k of  sum over kk < 512 of x(p, 512 j + kk) * W(1024 n + q, 512 j + kk):
  at k = 0 the accumulator is cleared first (0 + the tile 0 sum), at k > 0 the tile's sum is added to what point t - 1
  (same n, tile k - 1) left. At k = 7 the stored output block is that total, which is the whole sum over i < 4096,
  plus the bias of column 1024 n + q.
-/
import proofs.«112785_j34136400068881_1_alg».proof.Proof.Pieces
import proofs.«112785_j34136400068881_1_alg».proof.Proof.Payload
import proofs.«112785_j34136400068881_1_alg».proof.Proof.Blocks
import proofs.«112785_j34136400068881_1_alg».proof.Proof.Spec

noncomputable section

namespace Cert.KernelIdeal.Invariant

open Idealize.ShloMosaic Idealize.ShloMosaic.TcCoe Idealize.SL.Sem Idealize.ShloMosaic.ValueIdx
open Cert.KernelIdeal Cert.KernelIdeal.Gen Cert.QuantLinear

variable (m : (ℓ : Loc nD τ sig) → Buf (Elt Ideal) ℓ)

/-- The arrays as the region finds them, in the specification's roles. -/
abbrev aX (c : Dev nD) : A2 512 4096 := V m c main_v0
abbrev aQ (c : Dev nD) : A2 4096 4096 := fun i => FloatOps.sitofp (F := Ideal) .f32 (V m c main_arg1 i)
abbrev aS (c : Dev nD) : A2 4096 1 := V m c main_arg2
abbrev aZ (c : Dev nD) : A2 4096 1 := V m c main_arg3
abbrev aU (c : Dev nD) : A2 4096 4096 := V m c main_arg4
abbrev aG (c : Dev nD) : A2 4096 4096 := V m c main_arg5
abbrev aB (c : Dev nD) : A2 1 4096 := V m c main_v1
/-- The weight they define. -/
abbrev aW (c : Dev nD) : Fin 4096 → Fin 4096 → EReal := wt (aQ m c) (aZ m c) (aS m c) (aU m c) (aG m c)

/-- The accumulating step at point t, on the point's blocks: what was there plus the point's tile. -/
theorem step_at (c : Dev nD) (t : Fin cfg0.N) (a : Vec Ideal S512x1024 .f32) (p : Fin 512) (q : Fin 1024) :
    k0_pay2 (F := Ideal) (iblk m c 1 t) (iblk m c 3 t) (iblk m c 2 t) (iblk m c 4 t) (iblk m c 5 t) (iblk m c 0 t) a (ix2 p q)
      = a (ix2 p q) + tile (aX m c) (aW m c) p (row (t.val / 8) q) (t.val % 8) := by
  refine (Payload.pay2_at (iblk m c 1 t) (iblk m c 3 t) (iblk m c 2 t) (iblk m c 4 t) (iblk m c 5 t) (iblk m c 0 t) a p q).trans ?_
  refine congrArg (a (ix2 p q) + ·) (Finset.sum_congr rfl fun kk _ => ?_)
  rw [Blocks.blk_x m c t p kk, Blocks.blk_q m c t q kk, Blocks.blk_z m c t q, Blocks.blk_s m c t q, Blocks.blk_u m c t q kk, Blocks.blk_g m c t q kk]
  rfl

/-- AFTER POINT n the accumulator holds the running total of the point's row of tiles, up to the point's tile. -/
theorem acc_eq (c : Dev nD) : ∀ (n : ℕ) (h : n < cfg0.N) (p : Fin 512) (q : Fin 1024),
    (outsAt0 m c n h).2 (ix2 p q) = upto (aX m c) (aW m c) p (row (n / 8) q) (n % 8)
  | 0, h, p, q => by
    rw [outsAt0_A m c ⟨0, h⟩ (Nat.zero_mod 8) (show ¬(0 : ℕ) % 8 = 7 by decide)]
    dsimp only
    rw [Pieces.acc_first]
    refine (step_at m c ⟨0, h⟩ (k0_pay1 (F := Ideal)) p q).trans ?_
    rw [Payload.pay1_at]
    exact zero_add_tile (aX m c) (aW m c) p (row (0 / 8) q)
  | n + 1, h, p, q => by
    have hN : n + 1 < 32 := lt_of_lt_of_eq h (show cfg0.N = 32 from N_0)
    by_cases h0 : (n + 1) % 8 = 0
    · have h1 : ¬(n + 1) % 8 = 7 := by omega
      rw [outsAt0_A m c ⟨n + 1, h⟩ h0 h1]
      dsimp only
      rw [Pieces.acc_first]
      refine (step_at m c ⟨n + 1, h⟩ (k0_pay1 (F := Ideal)) p q).trans ?_
      rw [Payload.pay1_at]
      show (0 : EReal) + tile (aX m c) (aW m c) p (row ((n + 1) / 8) q) ((n + 1) % 8) = upto (aX m c) (aW m c) p (row ((n + 1) / 8) q) ((n + 1) % 8)
      rw [h0]
      exact zero_add_tile (aX m c) (aW m c) p (row ((n + 1) / 8) q)
    · have e1 : (n + 1) / 8 = n / 8 := by omega
      have e2 : (n + 1) % 8 = n % 8 + 1 := by omega
      by_cases h1 : (n + 1) % 8 = 7
      · rw [outsAt0_C m c ⟨n + 1, h⟩ h0 h1]
        dsimp only
        rw [Pieces.acc_last]
        refine (step_at m c ⟨n + 1, h⟩ _ p q).trans ?_
        show (outsAt0 m c n _).2 (ix2 p q) + tile (aX m c) (aW m c) p (row ((n + 1) / 8) q) ((n + 1) % 8) = upto (aX m c) (aW m c) p (row ((n + 1) / 8) q) ((n + 1) % 8)
        rw [acc_eq c n _ p q, e1, e2]
        exact upto_add_tile (aX m c) (aW m c) p (row (n / 8) q) (n % 8)
      · rw [outsAt0_B m c ⟨n + 1, h⟩ h0 h1]
        dsimp only
        rw [Pieces.acc_middle]
        refine (step_at m c ⟨n + 1, h⟩ _ p q).trans ?_
        show (outsAt0 m c n _).2 (ix2 p q) + tile (aX m c) (aW m c) p (row ((n + 1) / 8) q) ((n + 1) % 8) = upto (aX m c) (aW m c) p (row ((n + 1) / 8) q) ((n + 1) % 8)
        rw [acc_eq c n _ p q, e1, e2]
        exact upto_add_tile (aX m c) (aW m c) p (row (n / 8) q) (n % 8)

/-- AT A LAST K-STEP the stored output block is the specification's result on the rows of the point's N-tile. -/
theorem out_eq (c : Dev nD) (t : Fin cfg0.N) (h7 : t.val % 8 = 7) (p : Fin 512) (q : Fin 1024) :
    (outsAt0 m c t.val t.isLt).1 (ix2 p q)
      = out2 (aX m c) (aQ m c) (aZ m c) (aS m c) (aU m c) (aG m c) (aB m c) (ix2 p (row (t.val / 8) q)) := by
  have hN : t.val < 32 := Blocks.t_lt t
  have h0 : ¬t.val % 8 = 0 := by omega
  have e1 : (t.val - 1) / 8 = t.val / 8 := by omega
  have e2 : (t.val - 1) % 8 = 6 := by omega
  rw [outsAt0_C m c t h0 h7]
  dsimp only
  rw [Pieces.out_last]
  refine (Payload.pay3_at _ (iblk m c 6 t) p q).trans ?_
  rw [Blocks.blk_b m c t q, out2_apply]
  refine congrArg (· + aB m c (ix2 0 (row (t.val / 8) q))) ?_
  refine (step_at m c t _ p q).trans ?_
  rw [acc_eq m c (t.val - 1) _ p q, e1, e2, h7]
  exact (upto_add_tile (aX m c) (aW m c) p (row (t.val / 8) q) 6).trans (upto_last (aX m c) (aW m c) p (row (t.val / 8) q))

end Cert.KernelIdeal.Invariant

end
-- ==== Proof.Final.lean ====
/-
  From the blocks to the arrays, and the run.

  The output block is written back at the last K-step of each N-tile only (points 8 n + 7), and there it holds the
  result on rows 0..511 and columns 1024 n .. 1024 n + 1023 of the [512, 4096] result. The four such blocks tile
  the array (column i1 is in tile i1 / 1024), so after the run the array is the result everywhere. Before the region
  the host recasts the input [4, 128, 4096] as [512, 4096] and the bias [4096] as one row [1, 4096]; after it, it
  recasts the [512, 4096] result as [4, 128, 4096].
-/
import proofs.«112785_j34136400068881_1_alg».proof.Proof.Invariant
import proofs.«112785_j34136400068881_1_alg».proof.Proof.Gen.KernelIdeal.Frame
import Idealize.ShloMosaic.Lib.Pipeline.Value
import Idealize.ShloMosaic.Lib.StableHlo.Run
import Idealize.ShloMosaic.Lib.Tactic

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.QuantLinear Cert.KernelIdeal.Invariant

variable (m : (ℓ : Loc nD τ sig) → Buf (Elt Ideal) ℓ) (ρ : Dev nD → PrngReg)

/-- The [512, 4096] result, of the arrays as the region finds them. -/
abbrev res (c : Dev nD) : Buf (Elt Ideal) ((c : Thread nD τ).loc main_v2) :=
  out2 (aX m c) (aQ m c) (aZ m c) (aS m c) (aU m c) (aG m c) (aB m c)

/-- WHAT A WRITE-BACK WRITES is its block of the result. -/
theorem flushed_eq (c : Dev nD) (t : Fin cfg0.N) (hf : (cfg0.win 7).flush t = true) :
    (dats m 0 c).flushed 7 t = ((cfg0.win 7).blk t).view.read (Elt Ideal) (res m c) := by
  have h7 : t.val % 8 = 7 := (flush0_7 t).mp hf
  obtain ⟨-, -, -, -, -, -, -, -, -, -, -, -, -, -, e70, e71⟩ := Blocks.idx_facts t
  have ht := Blocks.t_lt t
  show (cfg0.win 7).cut (grid0.coords t) ((dats m 0 c).after 7 t) = _
  rw [after0_7]
  refine funext fun (j : S512x1024.Idx) => ?_
  obtain ⟨p, q, rfl⟩ : ∃ (p : Fin 512) (q : Fin 1024), j = ix2 p q := ⟨j 0, j 1, eq_ix2 j⟩
  rw [View.read_apply]
  show (outsAt0 m c t.val t.isLt).1 (ix2 p q) = res m c _
  rw [Invariant.out_eq m c t h7 p q]
  refine congrArg (res m c) (funext fun a => Fin.ext ?_)
  have hq := q.isLt
  match a with
  | ⟨0, _⟩ => show p.val = win0_7.index t (0 : Fin 2) * 512 + 1 * p.val; omega
  | ⟨1, _⟩ => show (1024 * (t.val / 8) + q.val) % 4096 = win0_7.index t (1 : Fin 2) * 1024 + 1 * q.val; omega

/-- An index of the array is in point t's block iff each coordinate is in the block's range on its axis. -/
theorem mem_blk (t : Fin cfg0.N) (i : S512x4096.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v2).slice (win0_7.rect t)).set ↔ _
  rw [View.set_slice_whole, Rect.mem_set_unit]
  exact Iff.rfl

/-- THE COVER: column i1 lies in the block written back at the last K-step of N-tile i1 / 1024. -/
theorem cover (i : S512x4096.Idx) : ∃ t : Fin cfg0.N, (cfg0.win 7).flush t = true ∧ i ∈ ((cfg0.win 7).blk t).view.set := by
  have hi0 : (i 0).val < 512 := (i 0).isLt
  have hi1 : (i 1).val < 4096 := (i 1).isLt
  have hN : cfg0.N = 32 := N_0
  have hlt : 8 * ((i 1).val / 1024) + 7 < cfg0.N := by rw [hN]; omega
  have hv : (⟨8 * ((i 1).val / 1024) + 7, hlt⟩ : Fin cfg0.N).val = 8 * ((i 1).val / 1024) + 7 := rfl
  obtain ⟨-, -, -, -, -, -, -, -, -, -, -, -, -, -, e70, e71⟩ := Blocks.idx_facts ⟨8 * ((i 1).val / 1024) + 7, hlt⟩
  refine ⟨⟨8 * ((i 1).val / 1024) + 7, hlt⟩, (flush0_7 _).mpr (by rw [hv]; omega), ?_⟩
  rw [mem_blk]
  rw [hv] at e71
  intro a
  match a with
  | ⟨0, _⟩ =>
    show win0_7.index ⟨8 * ((i 1).val / 1024) + 7, hlt⟩ (0 : Fin 2) * 512 ≤ (i 0).val ∧ (i 0).val < win0_7.index ⟨8 * ((i 1).val / 1024) + 7, hlt⟩ (0 : Fin 2) * 512 + 512
    omega
  | ⟨1, _⟩ =>
    show win0_7.index ⟨8 * ((i 1).val / 1024) + 7, hlt⟩ (1 : Fin 2) * 1024 ≤ (i 1).val ∧ (i 1).val < win0_7.index ⟨8 * ((i 1).val / 1024) + 7, hlt⟩ (1 : Fin 2) * 1024 + 1024
    omega

/-- THE ARRAY AFTER THE RUN is the result. -/
theorem final (c : Dev nD) : (dats m 0 c).arrAt 7 cfg0.N = res m c :=
  (dats m 0 c).arrAt_eq_of_cover 7 (res m c) (flushed_eq m c) cover

/-- Before the region the input is recast as [512, 4096] -/
theorem V_x (c : Dev nD) : (V m c main_v0 : S512x4096.Idx → EReal)
    = shapeCast S512x4096 (m ((c : Thread nD τ).loc main_arg0)) shapeCasts_S4x128x4096_S512x4096 := by
  show StableHlo.after hostOps0 (fun b => m (c, b)) (Proc.devRef .tc main_v0) = _
  after_results
  rfl

/-- and the bias as one row. -/
theorem V_b (c : Dev nD) : (V m c main_v1 : S1x4096.Idx → EReal)
    = shapeCast S1x4096 (m ((c : Thread nD τ).loc main_arg6)) shapeCasts_S4096_S1x4096 := by
  show StableHlo.after hostOps0 (fun b => m (c, b)) (Proc.devRef .tc main_v1) = _
  after_results
  rfl

/-- The kernel program's result: the [512, 4096] result recast as [4, 128, 4096]. -/
abbrev kres (c : Dev nD) : Buf (Elt Ideal) ((c : Thread nD τ).loc main_v3) :=
  shapeCast S4x128x4096 (res m c) shapeCasts_S512x4096_S4x128x4096

/-- The program's result in terms of the argument arrays alone: no host operation before the region writes them. -/
theorem kres_eq (c : Dev nD) : kres m c
    = shapeCast S4x128x4096 (out2 (shapeCast S512x4096 (m ((c : Thread nD τ).loc main_arg0)) shapeCasts_S4x128x4096_S512x4096)
        (fun i => FloatOps.sitofp (F := Ideal) .f32 (m ((c : Thread nD τ).loc main_arg1) i))
        (m ((c : Thread nD τ).loc main_arg3)) (m ((c : Thread nD τ).loc main_arg2))
        (m ((c : Thread nD τ).loc main_arg4)) (m ((c : Thread nD τ).loc main_arg5))
        (shapeCast S1x4096 (m ((c : Thread nD τ).loc main_arg6)) shapeCasts_S4096_S1x4096)) shapeCasts_S512x4096_S4x128x4096 := by
  show shapeCast S4x128x4096 (out2 (V m c main_v0) (fun i => FloatOps.sitofp (F := Ideal) .f32 (V m c main_arg1 i)) (V m c main_arg3)
      (V m c main_arg2) (V m c main_arg4) (V m c main_arg5) (V m c main_v1)) _ = _
  rw [V_x m c, V_b m c, V_main_arg1 m c, V_main_arg2 m c, V_main_arg3 m c, V_main_arg4 m c, V_main_arg5 m c]

/-- After the region the host recasts the array the region wrote. -/
theorem tail_eq (c : Dev nD) : Pipeline.afterTail₀ cfgs (dats m) 0 (V0 m) [hostOps1] c main_v3 = kres m c := by
  unfold Pipeline.afterTail₀
  show StableHlo.after hostOps1 _ (Proc.devRef .tc main_v3) = _
  after_results
  show shapeCast S4x128x4096 (Pipeline.withArrays spec0 c (V0 m c) (fun w => (dats m 0 c).arrAt w cfg0.N) (Proc.devRef .tc (Pipeline.arrRef spec0 7))) _ = _
  rw [Pipeline.withArrays_arr spec0 launch0.win.arr_inj c _ _ 7, final m c]

/-- THE RUN, READ: the result buffer at the recast result, the arguments unchanged. -/
theorem run : θ_run defs (onTc (τ := τ) (main (F := Ideal))) ⟨m, fun _ => 0, ρ⟩ fun r => ∀ c : Dev nD,
      r.2.mem ((c.tc : Thread nD τ).loc main_v3) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v3 (Pipeline.mem_restRefs_of main_v3 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c))⟩)
    (run_main m ρ)

end Cert.KernelIdeal.Final

end
-- ==== Proof.Bridge.lean ====
/-
  The reference computes the same function.

  Read entry by entry, the reference's result at (b, s, o) is
      (sum over k < 4096 of input(b, s, k) * W(o, k)) + bias(o),
  W the same dequantized, corrected weight. The [4, 128, 4096] input recast as [512, 4096] has input(b, s, k) at
  (128 b + s, k), the bias recast as one row has bias(o) at (0, o), and the [512, 4096] result recast as [4, 128, 4096]
  is read at (128 b + s, o): all three recasts keep the row-major position.
-/
import proofs.«112785_j34136400068881_1_alg».proof.Proof.Gen.ReferenceIdeal.Read
import proofs.«112785_j34136400068881_1_alg».proof.Proof.Spec
import Idealize.ShloMosaic.Lib.ValueIdx
import Idealize.ShloMosaic.Lib.Pipeline.Value

noncomputable section

namespace Cert.ReferenceIdeal.Bridge

open Idealize.ShloMosaic Idealize.ShloMosaic.ValueIdx
open Cert.ReferenceIdeal Cert.ReferenceIdeal.Read Cert.QuantLinear

/-- Row 128 b + s of the recast input. -/
def flat (b : Fin 4) (s : Fin 128) : Fin 512 := ⟨128 * b.val + s.val, by have := b.isLt; have := s.isLt; omega⟩

/-- The reference's last stage is the specification's result, recast. -/
theorem ref_eq (x0 : (⟨S4x128x4096, .f32⟩ : BufTy).Contents (Elt Ideal)) (x1 : (⟨S4096x4096, .i32⟩ : BufTy).Contents (Elt Ideal))
    (x2 x3 : (⟨S4096x1, .f32⟩ : BufTy).Contents (Elt Ideal)) (x4 x5 : (⟨S4096x4096, .f32⟩ : BufTy).Contents (Elt Ideal))
    (x6 : (⟨S4096, .f32⟩ : BufTy).Contents (Elt Ideal))
    (h1 : S4x128x4096.ShapeCasts ⟨2, ![512, 4096]⟩) (h2 : S4096.ShapeCasts ⟨2, ![1, 4096]⟩)
    (h3 : (⟨2, ![512, 4096]⟩ : Shape).ShapeCasts S4x128x4096) :
    val_main_v10 (F := Ideal) x0 x1 x2 x3 x4 x5 x6
      = shapeCast S4x128x4096 (out2 (shapeCast ⟨2, ![512, 4096]⟩ x0 h1) (fun i => FloatOps.sitofp (F := Ideal) .f32 (x1 i))
          x3 x2 x4 x5 (shapeCast ⟨2, ![1, 4096]⟩ x6 h2)) h3 := by
  funext i
  obtain ⟨b, s, o, rfl⟩ : ∃ (b : Fin 4) (s : Fin 128) (o : Fin 4096), i = ix3 b s o := ⟨i 0, i 1, i 2, eq_ix3 i⟩
  rw [shapeCast_apply _ h3 (ix3 b s o) (ix2 (flat b s) o) (by
    rw [Shape.rowMajor_val_two, Shape.rowMajor_val_three]
    show (128 * b.val + s.val) * 4096 + o.val = (b.val * 128 + s.val) * 4096 + o.val
    omega)]
  rw [out2_apply, val_main_v10_apply, val_main_v7_apply, val_main_v9_apply, val_main_v8_apply]
  have eb : shapeCast ⟨2, ![1, 4096]⟩ x6 h2 (ix2 0 o) = x6 (idx_main_v8 (idx_main_v9 (ix3 b s o))) := by
    refine (shapeCast_apply x6 h2 (ix2 0 o) (ix1 o) (by
      rw [Shape.rowMajor_val_one, Shape.rowMajor_val_two]
      show o.val = 0 * 4096 + o.val
      omega)).trans (congrArg x6 (funext fun a => by match a with | ⟨0, _⟩ => rfl))
  rw [eb]
  refine congrArg (· + x6 (idx_main_v8 (idx_main_v9 (ix3 b s o)))) ?_
  unfold dot
  refine Finset.sum_congr rfl fun k _ => ?_
  have el : lidx_main_v7 (ix3 b s o) k = ix3 b s k := funext fun a => by
    match a with
    | ⟨0, _⟩ => rfl
    | ⟨1, _⟩ => rfl
    | ⟨2, _⟩ => rfl
  have er : ridx_main_v7 (ix3 b s o) k = ix2 o k := funext fun a => by
    match a with
    | ⟨0, _⟩ => rfl
    | ⟨1, _⟩ => rfl
  have e1 : idx_main_v1 (ix2 o k) = ix2 o 0 := funext fun a => by
    match a with
    | ⟨0, _⟩ => rfl
    | ⟨1, _⟩ => rfl
  have e3 : idx_main_v3 (ix2 o k) = ix2 o 0 := funext fun a => by
    match a with
    | ⟨0, _⟩ => rfl
    | ⟨1, _⟩ => rfl
  rw [el, er, shapeCast_apply x0 h1 (ix2 (flat b s) k) (ix3 b s k) (by
    rw [Shape.rowMajor_val_two, Shape.rowMajor_val_three]
    show (b.val * 128 + s.val) * 4096 + k.val = (128 * b.val + s.val) * 4096 + k.val
    omega)]
  rw [val_main_v6_apply, val_main_v4_apply, val_main_v5_apply, val_main_v2_apply, val_main_v0_apply, val_main_v1_apply,
    val_main_v3_apply, e1, e3]
  rfl

end Cert.ReferenceIdeal.Bridge

end
-- ==== Proof.lean ====
/-
  Quantized linear layer: the tiled kernel against the dense reference, over the extended reals.

  Both programs compute, at row p = 128 b + s and output feature o,
      (sum over i < 4096 of x(p, i) * W(o, i)) + bias(o),     W(o, i) = (q(o, i) - z(o)) * s(o) + u(o, i) * g(o, i).
  The reference does it with one contraction over all 4096 input features. The kernel walks a 4 x 8 grid: for each
  tile of 1024 output features it adds, into an accumulator cleared at the first step, the partial products over the
  8 tiles of 512 input features, and at the last step stores accumulator + bias. The two agree because a sum over
  8 * 512 consecutive indices is the sum of its 8 tile sums (true in any commutative monoid, so no finiteness of the
  inputs is used), a change of float format is the identity on the extended reals, and the recasts
  [4, 128, 4096] <-> [512, 4096] and [4096] -> [1, 4096] keep the row-major position of every entry.

  The modules: Spec (the function and the tile law), Pieces (what each case of the body leaves, as its payloads),
  Payload (the payloads entry by entry), Blocks (the blocks read off the arrays), Invariant (the running total by
  induction on the grid point), Final (blocks to array, the host recasts, the run), Bridge (the reference is the
  same function). The idealization rewrote nothing, so its conjunct is trivial.
-/
import proofs.«112785_j34136400068881_1_alg».proof.Defs
import proofs.«112785_j34136400068881_1_alg».proof.Proof.Gen.Kernel
import proofs.«112785_j34136400068881_1_alg».proof.Proof.Gen.Kernel.Frame
import proofs.«112785_j34136400068881_1_alg».proof.Proof.Gen.KernelIdeal
import proofs.«112785_j34136400068881_1_alg».proof.Proof.Gen.KernelIdeal.Frame
import proofs.«112785_j34136400068881_1_alg».proof.Proof.Gen.ReferenceIdeal
import proofs.«112785_j34136400068881_1_alg».proof.Proof.Gen.ReferenceIdeal.Run
import proofs.«112785_j34136400068881_1_alg».proof.Proof.Gen.ReferenceIdeal.Read
import proofs.«112785_j34136400068881_1_alg».proof.Proof.Gen.Pre_finite_inputs
import proofs.«112785_j34136400068881_1_alg».proof.Proof.Final
import proofs.«112785_j34136400068881_1_alg».proof.Proof.Bridge
import Idealize.ShloMosaic.Adequacy
import Idealize.ShloMosaic.Init

noncomputable section

namespace Cert.Proof

open Idealize.ShloMosaic Idealize.SL.Sem

/-- The kernel as printed runs to the end without a fault and leaves its arguments alone (the generated frame). -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result: the kernel's at the recast
    tiled result, the reference's at its composed term, which is that same function of the same arguments. -/
theorem algebraic : Cert.algebraic_KernelIdeal_ReferenceIdeal := by
  intro m ρ m' ρ' _ hagree
  refine ⟨fun c => Cert.KernelIdeal.Final.kres m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6, Cert.ReferenceIdeal.Read.val_main_v10_eq]
  exact (Cert.ReferenceIdeal.Bridge.ref_eq _ _ _ _ _ _ _ _ _ _).trans (Cert.KernelIdeal.Final.kres_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
